-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x48x48 : Shape := ⟨4, ![8, 128, 48, 48]⟩
abbrev S_ : Shape := ⟨0, ![]⟩

class Facts : Prop where
  bcast_S_S8x128x48x48 : S_.BroadcastsInDim S8x128x48x48 (![] : Fin 0 → Fin S8x128x48x48.rank)
  reducesTo_S8x128x48x48_S_d0_1_2_3 : S8x128x48x48.ReducesTo [0, 1, 2, 3] S_
  h_S_ : 0 < S_.numel

variable [Facts]

def fn {F : FTy → Type} [FloatOps F] (main_arg0 : FVec F S8x128x48x48 .f32) (main_arg1 : FVec F S8x128x48x48 .f32) : IVec S_ 1 :=
  let main_v0 : FVec F S8x128x48x48 .f32 := Host.absf main_arg0
  let main_cst : FVec F S_ .f32 := constant S_ .f32 0x7F800000#32
  let main_v1 : FVec F S8x128x48x48 .f32 := broadcastInDim S8x128x48x48 ![] bcast_S_S8x128x48x48 main_cst
  let main_v2 : IVec S8x128x48x48 1 := cmpf .olt main_v0 main_v1
  let main_c : IVec S_ 1 := constantI S_ 1 1#1
  let main_v3 : IVec S_ 1 := (fun x v => Host.reduce IntOp.andi x v reducesTo_S8x128x48x48_S_d0_1_2_3 h_S_) main_v2 main_c
  let main_v4 : FVec F S8x128x48x48 .f32 := Host.absf main_arg1
  let main_cst_0 : FVec F S_ .f32 := constant S_ .f32 0x7F800000#32
  let main_v5 : FVec F S8x128x48x48 .f32 := broadcastInDim S8x128x48x48 ![] bcast_S_S8x128x48x48 main_cst_0
  let main_v6 : IVec S8x128x48x48 1 := cmpf .olt main_v4 main_v5
  let main_c_1 : IVec S_ 1 := constantI S_ 1 1#1
  let main_v7 : IVec S_ 1 := (fun x v => Host.reduce IntOp.andi x v reducesTo_S8x128x48x48_S_d0_1_2_3 h_S_) main_v6 main_c_1
  let main_v8 : IVec S_ 1 := andi main_v3 main_v7
  main_v8
-- ==== Kernel.lean ====
abbrev S8x128x48x48 : Shape := ⟨4, ![8, 128, 48, 48]⟩
abbrev S8x128x2304 : Shape := ⟨3, ![8, 128, 2304]⟩
abbrev S_ : Shape := ⟨0, ![]⟩
abbrev S8x2304 : Shape := ⟨2, ![8, 2304]⟩
abbrev S8x2304x1 : Shape := ⟨3, ![8, 2304, 1]⟩
abbrev S8x1x2304 : Shape := ⟨3, ![8, 1, 2304]⟩
abbrev S8x2304x2304 : Shape := ⟨3, ![8, 2304, 2304]⟩
abbrev S1x128x1152 : Shape := ⟨3, ![1, 128, 1152]⟩
abbrev S1x1152x1 : Shape := ⟨3, ![1, 1152, 1]⟩
abbrev S1x1x1152 : Shape := ⟨3, ![1, 1, 1152]⟩
abbrev S1x1152x1152 : Shape := ⟨3, ![1, 1152, 1152]⟩
abbrev S128x1152 : Shape := ⟨2, ![128, 1152]⟩
abbrev S1152x1 : Shape := ⟨2, ![1152, 1]⟩
abbrev S1x1152 : Shape := ⟨2, ![1, 1152]⟩
abbrev S1152x1152 : Shape := ⟨2, ![1152, 1152]⟩
abbrev S8x2304x48x48 : Shape := ⟨4, ![8, 2304, 48, 48]⟩

abbrev nBuf : Space → Nat
  | .hbm => 14
  | .vmem => 10
  | .smem => 0
  | _ => 0

abbrev bufTy : (tb : Table) → Fin (tcTables nBuf tb) → BufTy
  | .hbm, ⟨0, _⟩ => ⟨S8x128x48x48, .f32⟩
  | .hbm, ⟨1, _⟩ => ⟨S8x128x48x48, .f32⟩
  | .hbm, ⟨2, _⟩ => ⟨S8x128x2304, .f32⟩
  | .hbm, ⟨3, _⟩ => ⟨S8x128x2304, .f32⟩
  | .hbm, ⟨4, _⟩ => ⟨S8x128x2304, .f32⟩
  | .hbm, ⟨5, _⟩ => ⟨S_, .f32⟩
  | .hbm, ⟨6, _⟩ => ⟨S8x2304, .f32⟩
  | .hbm, ⟨7, _⟩ => ⟨S8x2304x1, .f32⟩
  | .hbm, ⟨8, _⟩ => ⟨S8x128x2304, .f32⟩
  | .hbm, ⟨9, _⟩ => ⟨S_, .f32⟩
  | .hbm, ⟨10, _⟩ => ⟨S8x2304, .f32⟩
  | .hbm, ⟨11, _⟩ => ⟨S8x1x2304, .f32⟩
  | .hbm, ⟨12, _⟩ => ⟨S8x2304x2304, .f32⟩
  | .hbm, ⟨13, _⟩ => ⟨S8x2304x48x48, .f32⟩
  | .local _ .vmem, ⟨0, _⟩ => ⟨S1x128x1152, .f32⟩
  | .local _ .vmem, ⟨1, _⟩ => ⟨S1x128x1152, .f32⟩
  | .local _ .vmem, ⟨2, _⟩ => ⟨S1x128x1152, .f32⟩
  | .local _ .vmem, ⟨3, _⟩ => ⟨S1x128x1152, .f32⟩
  | .local _ .vmem, ⟨4, _⟩ => ⟨S1x1152x1, .f32⟩
  | .local _ .vmem, ⟨5, _⟩ => ⟨S1x1152x1, .f32⟩
  | .local _ .vmem, ⟨6, _⟩ => ⟨S1x1x1152, .f32⟩
  | .local _ .vmem, ⟨7, _⟩ => ⟨S1x1x1152, .f32⟩
  | .local _ .vmem, ⟨8, _⟩ => ⟨S1x1152x1152, .f32⟩
  | .local _ .vmem, ⟨9, _⟩ => ⟨S1x1152x1152, .f32⟩
  | _, _ => ⟨S8x128x48x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x128x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x128x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1152x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1152x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

class Facts₀ : Prop where
  shapeCasts_S8x128x48x48_S8x128x2304 : S8x128x48x48.ShapeCasts S8x128x2304
  reducesTo_S8x128x2304_S8x2304_d1 : S8x128x2304.ReducesTo [1] S8x2304
  h_S_ : 0 < S_.numel
  bcast_S8x2304_S8x2304x1_0_1 : S8x2304.BroadcastsInDim S8x2304x1 (![0, 1] : Fin 2 → Fin S8x2304x1.rank)
  bcast_S8x2304_S8x1x2304_0_2 : S8x2304.BroadcastsInDim S8x1x2304 (![0, 2] : Fin 2 → Fin S8x1x2304.rank)
  inb_S1x128x1152_S1x128x1152_0_0_0 : ∀ a, (![0, 0, 0] : Fin 3 → Nat) a + S1x128x1152.size a ≤ S1x128x1152.size a
  h_S1x128x1152 : 0 < S1x128x1152.numel
  shapeCasts_S1x128x1152_S128x1152 : S1x128x1152.ShapeCasts S128x1152
  inb_S1x1152x1_S1x1152x1_0_0_0 : ∀ a, (![0, 0, 0] : Fin 3 → Nat) a + S1x1152x1.size a ≤ S1x1152x1.size a
  h_S1x1152x1 : 0 < S1x1152x1.numel
  shapeCasts_S1x1152x1_S1152x1 : S1x1152x1.ShapeCasts S1152x1
  inb_S1x1x1152_S1x1x1152_0_0_0 : ∀ a, (![0, 0, 0] : Fin 3 → Nat) a + S1x1x1152.size a ≤ S1x1x1152.size a
  h_S1x1x1152 : 0 < S1x1x1152.numel
  shapeCasts_S1x1x1152_S1x1152 : S1x1x1152.ShapeCasts S1x1152
  bitsLt_bf16_f32 : FTy.bits .bf16 < FTy.bits .f32
  broadcasts_S1152x1_S1152x1152 : S1152x1.Broadcasts S1152x1152
  broadcasts_S1x1152_S1152x1152 : S1x1152.Broadcasts S1152x1152
  inb_S1x1152x1152_S1x1152x1152_0_0_0 : ∀ a, (![0, 0, 0] : Fin 3 → Nat) a + S1x1152x1152.size a ≤ S1x1152x1152.size a
  h_S1x1152x1152 : 0 < S1x1152x1152.numel
  shapeCasts_S1x1152x1152_S1152x1152 : S1x1152x1152.ShapeCasts S1152x1152
  shapeCasts_S1152x1152_S1x1152x1152 : S1152x1152.ShapeCasts S1x1152x1152
  shapeCasts_S8x2304x2304_S8x2304x48x48 : S8x2304x2304.ShapeCasts S8x2304x48x48
  dot_S128x1152_S128x1152_S1152x1152_0_0_1_1_n_n_wf : DotDims.WF S128x1152 S128x1152 S1152x1152 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x1152.size a ≤ S8x128x2304.size a
  hwx0_0 : ∀ i : grid0.Coords, EltTy.bits .f32 = 32 ∨ (Rect.block (s := S8x128x2304) S1x128x1152.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x1152.size a ≤ S8x128x2304.size a
  hwx0_1 : ∀ i : grid0.Coords, EltTy.bits .f32 = 32 ∨ (Rect.block (s := S8x128x2304) S1x128x1152.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1152x1.size a ≤ S8x2304x1.size a
  hwx0_2 : ∀ i : grid0.Coords, EltTy.bits .f32 = 32 ∨ (Rect.block (s := S8x2304x1) S1x1152x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1152.size a ≤ S8x1x2304.size a
  hwx0_3 : ∀ i : grid0.Coords, EltTy.bits .f32 = 32 ∨ (Rect.block (s := S8x1x2304) S1x1x1152.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1152x1152.size a ≤ S8x2304x2304.size a
  hwx0_4 : ∀ i : grid0.Coords, EltTy.bits .f32 = 32 ∨ (Rect.block (s := S8x2304x2304) S1x1152x1152.size (cc0_transform_4 i) (hinb0_4 i)).WholeWords (EltTy.packing .f32)

variable [Facts₀]

def dot_S128x1152_S128x1152_S1152x1152_0_0_1_1_n_n : DotDims S128x1152 S128x1152 S1152x1152 where
  lhsContracting := [0]
  rhsContracting := [0]
  lhsNonContracting := [1]
  rhsNonContracting := [1]
  lhsBatch := []
  rhsBatch := []
  wf := dot_S128x1152_S128x1152_S1152x1152_0_0_1_1_n_n_wf

abbrev win0_0 : Pipeline.Window sig grid0 :=
  Pipeline.Window.ofSpec (Memref.whole main_v0) S1x128x1152.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x128x1152.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1152x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x1x1152.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x1152x1152.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x128x48x48 : Shape := ⟨4, ![8, 128, 48, 48]⟩
abbrev S8x128x2304 : Shape := ⟨3, ![8, 128, 2304]⟩
abbrev S_ : Shape := ⟨0, ![]⟩
abbrev S8x2304 : Shape := ⟨2, ![8, 2304]⟩
abbrev S8x2304x2304 : Shape := ⟨3, ![8, 2304, 2304]⟩
abbrev S8x2304x1 : Shape := ⟨3, ![8, 2304, 1]⟩
abbrev S8x1x2304 : Shape := ⟨3, ![8, 1, 2304]⟩
abbrev S8x2304x48x48 : Shape := ⟨4, ![8, 2304, 48, 48]⟩

abbrev nBuf : Space → Nat
  | .hbm => 21
  | .vmem => 0
  | .smem => 0
  | _ => 0

abbrev bufTy : (tb : Table) → Fin (tcTables nBuf tb) → BufTy
  | .hbm, ⟨0, _⟩ => ⟨S8x128x48x48, .f32⟩
  | .hbm, ⟨1, _⟩ => ⟨S8x128x48x48, .f32⟩
  | .hbm, ⟨2, _⟩ => ⟨S8x128x2304, .f32⟩
  | .hbm, ⟨3, _⟩ => ⟨S8x128x2304, .f32⟩
  | .hbm, ⟨4, _⟩ => ⟨S8x128x2304, .f32⟩
  | .hbm, ⟨5, _⟩ => ⟨S_, .f32⟩
  | .hbm, ⟨6, _⟩ => ⟨S8x2304, .f32⟩
  | .hbm, ⟨7, _⟩ => ⟨S8x128x2304, .f32⟩
  | .hbm, ⟨8, _⟩ => ⟨S_, .f32⟩
  | .hbm, ⟨9, _⟩ => ⟨S8x2304, .f32⟩
  | .hbm, ⟨10, _⟩ => ⟨S8x2304x2304, .f32⟩
  | .hbm, ⟨11, _⟩ => ⟨S8x2304x1, .f32⟩
  | .hbm, ⟨12, _⟩ => ⟨S8x1x2304, .f32⟩
  | .hbm, ⟨13, _⟩ => ⟨S8x2304x2304, .f32⟩
  | .hbm, ⟨14, _⟩ => ⟨S8x2304x2304, .f32⟩
  | .hbm, ⟨15, _⟩ => ⟨S8x2304x2304, .f32⟩
  | .hbm, ⟨16, _⟩ => ⟨S_, .f32⟩
  | .hbm, ⟨17, _⟩ => ⟨S8x2304x2304, .f32⟩
  | .hbm, ⟨18, _⟩ => ⟨S8x2304x2304, .f32⟩
  | .hbm, ⟨19, _⟩ => ⟨S8x2304x2304, .f32⟩
  | .hbm, ⟨20, _⟩ => ⟨S8x2304x48x48, .f32⟩
  | _, _ => ⟨S8x128x48x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]

class Facts₀ : Prop where
  shapeCasts_S8x128x48x48_S8x128x2304 : S8x128x48x48.ShapeCasts S8x128x2304
  reducesTo_S8x128x2304_S8x2304_d1 : S8x128x2304.ReducesTo [1] S8x2304
  h_S_ : 0 < S_.numel
  bcast_S8x2304_S8x2304x1_0_1 : S8x2304.BroadcastsInDim S8x2304x1 (![0, 1] : Fin 2 → Fin S8x2304x1.rank)
  bcast_S8x2304_S8x1x2304_0_2 : S8x2304.BroadcastsInDim S8x1x2304 (![0, 2] : Fin 2 → Fin S8x1x2304.rank)
  bcast_S8x2304x1_S8x2304x2304_0_1_2 : S8x2304x1.BroadcastsInDim S8x2304x2304 (![0, 1, 2] : Fin 3 → Fin S8x2304x2304.rank)
  bcast_S8x1x2304_S8x2304x2304_0_1_2 : S8x1x2304.BroadcastsInDim S8x2304x2304 (![0, 1, 2] : Fin 3 → Fin S8x2304x2304.rank)
  bcast_S_S8x2304x2304 : S_.BroadcastsInDim S8x2304x2304 (![] : Fin 0 → Fin S8x2304x2304.rank)
  shapeCasts_S8x2304x2304_S8x2304x48x48 : S8x2304x2304.ShapeCasts S8x2304x48x48
  dot_S8x128x2304_S8x128x2304_S8x2304x2304_1_1_2_2_0_0_wf : DotDims.WF S8x128x2304 S8x128x2304 S8x2304x2304 [1] [1] [2] [2] [0] [0]

variable [Facts₀]

def dot_S8x128x2304_S8x128x2304_S8x2304x2304_1_1_2_2_0_0 : DotDims S8x128x2304 S8x128x2304 S8x2304x2304 where
  lhsContracting := [1]
  rhsContracting := [1]
  lhsNonContracting := [2]
  rhsNonContracting := [2]
  lhsBatch := [0]
  rhsBatch := [0]
  wf := dot_S8x128x2304_S8x128x2304_S8x2304x2304_1_1_2_2_0_0_wf

class Facts : Prop extends Facts₀ where

variable [Facts]
-- ==== Proof.CostVolume.lean ====
/-
  The pairwise squared-distance cost volume, as one function of four arrays.

  For a batch entry `b` and two positions `i`, `j` (each one of the 2304 points of a 48 x 48 image), with 128 channels:

      P(b, i, j) = (sx(b, i) + sy(b, j)) - 2 * sum over channels c of y(b, c, i) * x(b, c, j)

  where `sx(b, i)` is kept as a column array of shape [8, 2304, 1] and `sy(b, j)` as a row array of shape [8, 1, 2304]
  (in the programs these hold the squared norms of the channel vectors of x and y, but nothing here depends on what they
  hold). The grouping is the one both programs use: the two norms are added first, then twice the inner product is
  subtracted. All values are extended reals; the factor 2 is kept as the float word both programs carry.
-/
import Idealize.ShloMosaic.PureOps.Ideal
import Idealize.ShloMosaic.Lib.ValueIdx

noncomputable section

namespace Cert.CostVolume

open Idealize.ShloMosaic Idealize.ShloMosaic.ValueIdx

/-- The channel-major image arrays: [batch, channel, position]. -/
abbrev ImgShape : Shape := ⟨3, ![8, 128, 2304]⟩
/-- A column of per-position numbers: [batch, position, 1]. -/
abbrev ColShape : Shape := ⟨3, ![8, 2304, 1]⟩
/-- A row of per-position numbers: [batch, 1, position]. -/
abbrev RowShape : Shape := ⟨3, ![8, 1, 2304]⟩
/-- The cost volume: [batch, position i, position j]. -/
abbrev VolShape : Shape := ⟨3, ![8, 2304, 2304]⟩

/-- The inner product over the 128 channels of y at position `i` and x at position `j`, in batch entry `b`. -/
def inner (xf yf : FVec Ideal ImgShape .f32) (b : Fin 8) (i j : Fin 2304) : EReal :=
  ∑ k : Fin 128, yf (ix3 b k i) * xf (ix3 b k j)

/-- The cost volume at an index (b, i, j): the column entry at (b, i) plus the row entry at (b, j), minus twice the inner
    product of y at `i` with x at `j`. -/
def vol (xf yf : FVec Ideal ImgShape .f32) (sxc : FVec Ideal ColShape .f32) (syr : FVec Ideal RowShape .f32) :
    FVec Ideal VolShape .f32 := fun i =>
  (sxc (ix3 (i 0) (i 1) (0 : Fin 1)) + syr (ix3 (i 0) (0 : Fin 1) (i 2)))
    - Ideal.ofBits .f32 0x40000000#32 * inner xf yf (i 0) (i 1) (i 2)

theorem vol_apply (xf yf : FVec Ideal ImgShape .f32) (sxc : FVec Ideal ColShape .f32) (syr : FVec Ideal RowShape .f32)
    (b : Fin 8) (i j : Fin 2304) :
    vol xf yf sxc syr (ix3 b i j)
      = (sxc (ix3 b i (0 : Fin 1)) + syr (ix3 b (0 : Fin 1) j)) - Ideal.ofBits .f32 0x40000000#32 * inner xf yf b i j := rfl

end Cert.CostVolume

end
-- ==== Proof.RefVolume.lean ====
/-
  The reference's subtract stage is the cost volume.

  Read one operation at a time, the reference's array before its final reshape is, at an index (b, i, j),
  (column(b, i, 0) + row(b, 0, j)) - 2 * (sum over channels of y(b, c, i) * x(b, c, j)): the two broadcasts to the
  full volume read the column and the row at the matching coordinates, the splat of the constant reads the constant,
  and the batched product of y with x, contracted over the channel axis, is the sum over channels. The four arrays it
  is a function of are the reshaped images and the two broadcast norms; they are left closed here.
-/
import proofs.«116475_j32804960207252_2_alg».proof.Proof.Gen.ReferenceIdeal.Read
import proofs.«116475_j32804960207252_2_alg».proof.Proof.CostVolume

noncomputable section

namespace Cert.ReferenceIdeal.RefVolume

open Cert.ReferenceIdeal Cert.ReferenceIdeal.Gen Cert.ReferenceIdeal.Read
open Idealize.ShloMosaic Idealize.ShloMosaic.ValueIdx Cert.CostVolume

/-- The index the column broadcast reads at (b, i, j) is (b, i, 0). -/
theorem col_index (i : S8x2304x2304.Idx) : idx_main_v9 i = ix3 (i 0) (i 1) (0 : Fin 1) :=
  funext fun a => Fin.ext (by match a with | ⟨0, _⟩ => rfl | ⟨1, _⟩ => rfl | ⟨2, _⟩ => rfl)

/-- The index the row broadcast reads at (b, i, j) is (b, 0, j). -/
theorem row_index (i : S8x2304x2304.Idx) : idx_main_v10 i = ix3 (i 0) (0 : Fin 1) (i 2) :=
  funext fun a => Fin.ext (by match a with | ⟨0, _⟩ => rfl | ⟨1, _⟩ => rfl | ⟨2, _⟩ => rfl)

/-- The left operand of the product (y) is read at (b, c, i). -/
theorem left_index (i : S8x2304x2304.Idx) (k : Fin 128) : lidx_main_v6 i k = ix3 (i 0) k (i 1) :=
  funext fun a => Fin.ext (by match a with | ⟨0, _⟩ => rfl | ⟨1, _⟩ => rfl | ⟨2, _⟩ => rfl)

/-- The right operand of the product (x) is read at (b, c, j). -/
theorem right_index (i : S8x2304x2304.Idx) (k : Fin 128) : ridx_main_v6 i k = ix3 (i 0) k (i 2) :=
  funext fun a => Fin.ext (by match a with | ⟨0, _⟩ => rfl | ⟨1, _⟩ => rfl | ⟨2, _⟩ => rfl)

/-- The array the reference reshapes at the end is the cost volume of the reshaped images and the two broadcast norms. -/
theorem sub_stage_eq (x0 x1 : (⟨S8x128x48x48, .f32⟩ : BufTy).Contents (Elt Ideal)) :
    val_main_v14 (F := Ideal) x0 x1
      = vol (val_main_v0 (F := Ideal) x0) (val_main_v1 (F := Ideal) x1) (val_main_v7 (F := Ideal) x0) (val_main_v8 (F := Ideal) x1) := by
  funext i
  rw [val_main_v14_apply, val_main_v11_apply, val_main_v9_apply, val_main_v10_apply, val_main_v13_apply,
    val_main_v12_apply, val_main_cst_1_apply, val_main_v6_apply]
  simp only [col_index, row_index, left_index, right_index]
  rfl

end Cert.ReferenceIdeal.RefVolume

end
-- ==== Proof.BlockVolume.lean ====
/-
  What the kernel body computes for one output tile, entry by entry.

  The body is handed four blocks, each with a leading axis of extent one: a [1, 128, 1152] block of x (channels by the
  tile's columns), a [1, 128, 1152] block of y (channels by the tile's rows), a [1, 1152, 1] column of numbers for the
  tile's rows and a [1, 1, 1152] row of numbers for the tile's columns. It writes a [1, 1152, 1152] tile whose entry
  (0, p, q) is

      (column(0, p, 0) + row(0, 0, q)) - 2 * sum over channels c of yblock(0, c, p) * xblock(0, c, q).

  The pieces: dropping or adding the leading unit axis keeps the remaining coordinates; broadcasting the column along the
  tile's columns reads it at the row p, broadcasting the row down the tile's rows reads it at the column q; the change
  of float format before the product is the identity on extended reals; and the matrix product, which contracts the
  channel axis (axis 0) of both operands into a zero accumulator, is the plain sum over the 128 channels.
-/
import proofs.«116475_j32804960207252_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.BlockVolume

open Cert.KernelIdeal Cert.KernelIdeal.Gen Idealize.ShloMosaic Idealize.ShloMosaic.ValueIdx

/-- A [1152, 1152] tile stored with a leading unit axis, read at (0, p, q), is the tile at (p, q). -/
theorem addUnit_tile (v : FVec Ideal S1152x1152 .f32) (p q : Fin 1152) :
    shapeCast S1x1152x1152 v shapeCasts_S1152x1152_S1x1152x1152 (ix3 (0 : Fin 1) p q) = v (ix2 p q) := by
  refine (shapeCast_addUnit_apply ![1152, 1152] v shapeCasts_S1152x1152_S1x1152x1152 (ix3 (0 : Fin 1) p q)).trans ?_
  exact congrArg v (funext fun a => by match a with | ⟨0, _⟩ => rfl | ⟨1, _⟩ => rfl)

/-- A [1, 128, 1152] block viewed without its leading unit axis, read at (c, r), is the block at (0, c, r). -/
theorem dropUnit_img (x : Vec Ideal S1x128x1152 .f32) (c : Fin 128) (r : Fin 1152) :
    shapeCast S128x1152 x shapeCasts_S1x128x1152_S128x1152 (ix2 c r) = x (ix3 (0 : Fin 1) c r) := by
  refine (shapeCast_dropUnit_apply ![128, 1152] x shapeCasts_S1x128x1152_S128x1152 (ix2 c r)).trans ?_
  exact congrArg x (funext fun a => by match a with | ⟨0, _⟩ => rfl | ⟨1, _⟩ => rfl | ⟨2, _⟩ => rfl)

/-- The column of the tile's rows, viewed as [1152, 1] and broadcast along the tile's columns, read at (p, q), is the
    column's entry for row p. -/
theorem col_bcast (x : Vec Ideal S1x1152x1 .f32) (p q : Fin 1152) :
    broadcastTo S1152x1152 (shapeCast S1152x1 x shapeCasts_S1x1152x1_S1152x1) broadcasts_S1152x1_S1152x1152 (ix2 p q)
      = x (ix3 (0 : Fin 1) p (0 : Fin 1)) := by
  refine (broadcastTo_apply (shapeCast S1152x1 x shapeCasts_S1x1152x1_S1152x1) broadcasts_S1152x1_S1152x1152 (ix2 p q)
    (ix2 p (0 : Fin 1)) (fun a => by match a with | ⟨0, _⟩ => rfl | ⟨1, _⟩ => rfl)).trans ?_
  refine (shapeCast_dropUnit_apply ![1152, 1] x shapeCasts_S1x1152x1_S1152x1 (ix2 p (0 : Fin 1))).trans ?_
  exact congrArg x (funext fun a => by match a with | ⟨0, _⟩ => rfl | ⟨1, _⟩ => rfl | ⟨2, _⟩ => rfl)

/-- The row of the tile's columns, viewed as [1, 1152] and broadcast down the tile's rows, read at (p, q), is the row's
    entry for column q. -/
theorem row_bcast (x : Vec Ideal S1x1x1152 .f32) (p q : Fin 1152) :
    broadcastTo S1152x1152 (shapeCast S1x1152 x shapeCasts_S1x1x1152_S1x1152) broadcasts_S1x1152_S1152x1152 (ix2 p q)
      = x (ix3 (0 : Fin 1) (0 : Fin 1) q) := by
  refine (broadcastTo_apply (shapeCast S1x1152 x shapeCasts_S1x1x1152_S1x1152) broadcasts_S1x1152_S1152x1152 (ix2 p q)
    (ix2 (0 : Fin 1) q) (fun a => by match a with | ⟨0, _⟩ => rfl | ⟨1, _⟩ => rfl)).trans ?_
  refine (shapeCast_dropUnit_apply ![1, 1152] x shapeCasts_S1x1x1152_S1x1152 (ix2 (0 : Fin 1) q)).trans ?_
  exact congrArg x (funext fun a => by match a with | ⟨0, _⟩ => rfl | ⟨1, _⟩ => rfl | ⟨2, _⟩ => rfl)

/-- The product's left operand: axis 0 is the contracted channel axis. -/
theorem left_axis0 (j : S1152x1152.Idx) (k : dot_S128x1152_S128x1152_S1152x1152_0_0_1_1_n_n.contr.Idx) :
    (dot_S128x1152_S128x1152_S1152x1152_0_0_1_1_n_n.lhsIdx j k 0).val = (k ⟨0, by decide⟩).val :=
  dot_S128x1152_S128x1152_S1152x1152_0_0_1_1_n_n.lhsIdx_val_of_single rfl j k
/-- The product's left operand: axis 1 is the result's row. -/
theorem left_axis1 (j : S1152x1152.Idx) (k : dot_S128x1152_S128x1152_S1152x1152_0_0_1_1_n_n.contr.Idx) :
    (dot_S128x1152_S128x1152_S1152x1152_0_0_1_1_n_n.lhsIdx j k 1).val = (j 0).val := by
  unfold DotDims.lhsIdx
  rw [dif_neg (show ¬(1 : Fin S128x1152.rank) ∈ dot_S128x1152_S128x1152_S1152x1152_0_0_1_1_n_n.lhsBatch by decide),
    dif_pos (show (1 : Fin S128x1152.rank) ∈ dot_S128x1152_S128x1152_S1152x1152_0_0_1_1_n_n.lhsNonContracting by decide)]
  rfl
/-- The product's right operand: axis 0 is the contracted channel axis. -/
theorem right_axis0 (j : S1152x1152.Idx) (k : dot_S128x1152_S128x1152_S1152x1152_0_0_1_1_n_n.contr.Idx) :
    (dot_S128x1152_S128x1152_S1152x1152_0_0_1_1_n_n.rhsIdx j k 0).val = (k ⟨0, by decide⟩).val :=
  dot_S128x1152_S128x1152_S1152x1152_0_0_1_1_n_n.rhsIdx_val_of_single rfl j k
/-- The product's right operand: axis 1 is the result's column. -/
theorem right_axis1 (j : S1152x1152.Idx) (k : dot_S128x1152_S128x1152_S1152x1152_0_0_1_1_n_n.contr.Idx) :
    (dot_S128x1152_S128x1152_S1152x1152_0_0_1_1_n_n.rhsIdx j k 1).val = (j 1).val := by
  unfold DotDims.rhsIdx
  rw [dif_neg (show ¬(1 : Fin S128x1152.rank) ∈ dot_S128x1152_S128x1152_S1152x1152_0_0_1_1_n_n.rhsBatch by decide),
    dif_pos (show (1 : Fin S128x1152.rank) ∈ dot_S128x1152_S128x1152_S1152x1152_0_0_1_1_n_n.rhsNonContracting by decide)]
  rfl

/-- The matrix product of the y block with the x block, both contracted over the channel axis, into a zero accumulator,
    read at (p, q): the sum over the 128 channels of y at row p times x at column q. -/
theorem gram_apply (lhs rhs : FVec Ideal S128x1152 .bf16) (p q : Fin 1152) :
    matmul dot_S128x1152_S128x1152_S1152x1152_0_0_1_1_n_n none lhs rhs (constant S1152x1152 .f32 0x00000000#32) (ix2 p q)
      = ∑ k : Fin 128, lhs (ix2 k p) * rhs (ix2 k q) := by
  simp only [matmul]
  rw [Ideal.matmul_constant_zero_apply,
    ← Equiv.sum_comp (contrEquiv1 dot_S128x1152_S128x1152_S1152x1152_0_0_1_1_n_n 128 rfl rfl).symm]
  refine Finset.sum_congr rfl fun k _ => ?_
  have hk := contrEquiv1_symm_val dot_S128x1152_S128x1152_S1152x1152_0_0_1_1_n_n 128 rfl rfl k
  have el : dot_S128x1152_S128x1152_S1152x1152_0_0_1_1_n_n.lhsIdx (ix2 p q)
      ((contrEquiv1 dot_S128x1152_S128x1152_S1152x1152_0_0_1_1_n_n 128 rfl rfl).symm k) = ix2 k p :=
    funext fun a => Fin.ext (by
      match a with
      | ⟨0, _⟩ => exact (left_axis0 _ _).trans hk
      | ⟨1, _⟩ => exact left_axis1 _ _)
  have er : dot_S128x1152_S128x1152_S1152x1152_0_0_1_1_n_n.rhsIdx (ix2 p q)
      ((contrEquiv1 dot_S128x1152_S128x1152_S1152x1152_0_0_1_1_n_n 128 rfl rfl).symm k) = ix2 k q :=
    funext fun a => Fin.ext (by
      match a with
      | ⟨0, _⟩ => exact (right_axis0 _ _).trans hk
      | ⟨1, _⟩ => exact right_axis1 _ _)
  rw [el, er]

/-- THE TILE, ENTRY BY ENTRY: the body's stored value at (0, p, q) from its four loaded blocks. -/
theorem tile_apply (x0 x1 : Vec Ideal S1x128x1152 .f32) (x2 : Vec Ideal S1x1152x1 .f32) (x3 : Vec Ideal S1x1x1152 .f32)
    (p q : Fin 1152) :
    k0_pay1 (F := Ideal) x0 x1 x2 x3 (ix3 (0 : Fin 1) p q)
      = (x2 (ix3 (0 : Fin 1) p (0 : Fin 1)) + x3 (ix3 (0 : Fin 1) (0 : Fin 1) q))
        - Ideal.ofBits .f32 0x40000000#32 * ∑ k : Fin 128, x1 (ix3 (0 : Fin 1) k p) * x0 (ix3 (0 : Fin 1) k q) := by
  unfold k0_pay1
  refine (addUnit_tile _ p q).trans ?_
  rw [subf_apply, addf_apply, mulf_apply, broadcast_apply, col_bcast, row_bcast, gram_apply]
  refine congrArg (fun s => (x2 (ix3 (0 : Fin 1) p (0 : Fin 1)) + x3 (ix3 (0 : Fin 1) (0 : Fin 1) q))
    - Ideal.ofBits .f32 0x40000000#32 * s) (Finset.sum_congr rfl fun k _ => ?_)
  rw [truncf_apply, truncf_apply, dropUnit_img, dropUnit_img]

end Cert.KernelIdeal.BlockVolume

end
-- ==== Proof.ArrayVolume.lean ====
/-
  The kernel's result array is the cost volume, reshaped.

  The grid has 8 x 2 x 2 points (b, I, J). At a point the kernel is handed the block of x for batch entry b and columns
  J * 1152 .. J * 1152 + 1151, the block of y for batch entry b and rows I * 1152 .. I * 1152 + 1151, the column block
  for those rows and the row block for those columns, and it writes back the [1152, 1152] tile (b, I, J) of the
  [8, 2304, 2304] array. Entry (0, p, q) of what it writes is therefore the cost volume at (b, I * 1152 + p,
  J * 1152 + q) of the four whole arrays: every tile is a restriction of one whole-array function. The 32 tiles cover the
  array (the tile of row r is r / 1152), so after the run the array is that function; the one host operation after
  the kernel reshapes it to [8, 2304, 48, 48].
-/
import proofs.«116475_j32804960207252_2_alg».proof.Proof.Gen.KernelIdeal.Frame
import proofs.«116475_j32804960207252_2_alg».proof.Proof.BlockVolume
import proofs.«116475_j32804960207252_2_alg».proof.Proof.CostVolume
import Idealize.ShloMosaic.Lib.Pipeline.Value
import Idealize.ShloMosaic.Lib.StableHlo.Run

noncomputable section

namespace Cert.KernelIdeal.ArrayVolume

open Cert.KernelIdeal Cert.KernelIdeal.Gen Idealize.ShloMosaic Idealize.ShloMosaic.TcCoe Idealize.SL.Sem
open Idealize.ShloMosaic.ValueIdx Cert.CostVolume
open Idealize.ShloMosaic.Pipeline (Dat)

variable (m : (ℓ : Loc nD τ sig) → Buf (Elt Ideal) ℓ) (ρ : Dev nD → PrngReg)

/-! ## One tile, over plain variables -/

/-- A tile is a restriction of the cost volume. Let the four blocks be the restrictions of four whole arrays to batch
    entry `B`, row block `I` and column block `J` (`h0` .. `h3`: each block entry is the array's entry at the shifted
    coordinates), and let `i` be the array index under tile entry `y` (`hi0` .. `hi2`). Then the body's stored value at `y`
    is the cost volume at `i`. -/
theorem tile_eq_vol (xf yf : FVec Ideal ImgShape .f32) (sxc : FVec Ideal ColShape .f32) (syr : FVec Ideal RowShape .f32)
    (x0 x1 : Vec Ideal S1x128x1152 .f32) (x2 : Vec Ideal S1x1152x1 .f32) (x3 : Vec Ideal S1x1x1152 .f32)
    (B I J : Nat)
    (h0 : ∀ (k : Fin 128) (r : Fin 1152) (i' : ImgShape.Idx), (i' 0).val = B → (i' 1).val = k.val → (i' 2).val = J * 1152 + r.val →
      x0 (ix3 (0 : Fin 1) k r) = xf i')
    (h1 : ∀ (k : Fin 128) (r : Fin 1152) (i' : ImgShape.Idx), (i' 0).val = B → (i' 1).val = k.val → (i' 2).val = I * 1152 + r.val →
      x1 (ix3 (0 : Fin 1) k r) = yf i')
    (h2 : ∀ (p : Fin 1152) (i' : ColShape.Idx), (i' 0).val = B → (i' 1).val = I * 1152 + p.val →
      x2 (ix3 (0 : Fin 1) p (0 : Fin 1)) = sxc i')
    (h3 : ∀ (q : Fin 1152) (i' : RowShape.Idx), (i' 0).val = B → (i' 2).val = J * 1152 + q.val →
      x3 (ix3 (0 : Fin 1) (0 : Fin 1) q) = syr i')
    (y : S1x1152x1152.Idx) (i : VolShape.Idx)
    (hi0 : (i 0).val = B) (hi1 : (i 1).val = I * 1152 + (y 1).val) (hi2 : (i 2).val = J * 1152 + (y 2).val) :
    k0_pay1 (F := Ideal) x0 x1 x2 x3 y = vol xf yf sxc syr i := by
  obtain ⟨u, p, q, rfl⟩ : ∃ (u : Fin 1) (p q : Fin 1152), y = ix3 u p q := ⟨y 0, y 1, y 2, eq_ix3 y⟩
  obtain rfl : u = 0 := Subsingleton.elim _ _
  rw [BlockVolume.tile_apply]
  unfold vol Cert.CostVolume.inner
  rw [h2 p (ix3 (i 0) (i 1) (0 : Fin 1)) hi0 hi1, h3 q (ix3 (i 0) (0 : Fin 1) (i 2)) hi0 hi2]
  refine congrArg (fun s => (sxc (ix3 (i 0) (i 1) (0 : Fin 1)) + syr (ix3 (i 0) (0 : Fin 1) (i 2)))
    - Ideal.ofBits .f32 0x40000000#32 * s) (Finset.sum_congr rfl fun k _ => ?_)
  rw [h1 k p (ix3 (i 0) k (i 1)) hi0 rfl hi1, h0 k q (ix3 (i 0) k (i 2)) hi0 rfl hi2]

/-! ## The grid -/

theorem zero_offsets : (![0, 0, 0] : Fin 3 → Nat) = fun _ => 0 := funext fun a => by fin_cases a <;> rfl

/-- The cost volume of the four arrays the kernel's input windows range over, as the region finds them. -/
abbrev wholeVol (c : Dev nD) : FVec Ideal VolShape .f32 :=
  vol (V m c main_v0) (V m c main_v1) (V m c main_v4) (V m c main_v7)

/-- The printed index maps, decided over the 32 grid points. With the output's block index (b, I, J): the x block is
    (b, 0, J), the y block (b, 0, I), the column block (b, I, 0), the row block (b, 0, J); and b < 8, I < 2, J < 2. -/
theorem idx_facts : ∀ t : Fin cfg0.N,
    win0_0.index t (0 : Fin 3) = win0_4.index t (0 : Fin 3) ∧ win0_0.index t (1 : Fin 3) = 0
    ∧ win0_0.index t (2 : Fin 3) = win0_4.index t (2 : Fin 3)
    ∧ win0_1.index t (0 : Fin 3) = win0_4.index t (0 : Fin 3) ∧ win0_1.index t (1 : Fin 3) = 0
    ∧ win0_1.index t (2 : Fin 3) = win0_4.index t (1 : Fin 3)
    ∧ win0_2.index t (0 : Fin 3) = win0_4.index t (0 : Fin 3) ∧ win0_2.index t (1 : Fin 3) = win0_4.index t (1 : Fin 3)
    ∧ win0_2.index t (2 : Fin 3) = 0
    ∧ win0_3.index t (0 : Fin 3) = win0_4.index t (0 : Fin 3) ∧ win0_3.index t (1 : Fin 3) = 0
    ∧ win0_3.index t (2 : Fin 3) = win0_4.index t (2 : Fin 3)
    ∧ win0_4.index t (0 : Fin 3) ≤ 7 ∧ win0_4.index t (1 : Fin 3) ≤ 1 ∧ win0_4.index t (2 : Fin 3) ≤ 1 :=
  (by decide +kernel : ∀ t : Fin grid0.N, _)

/-- Every tile (b, I, J) is some grid point's. -/
theorem idx_onto : ∀ (q0 : Fin 8) (q1 : Fin 2) (q2 : Fin 2), ∃ t : Fin cfg0.N, win0_4.index t = ![q0.val, q1.val, q2.val] :=
  (by decide +kernel : ∀ (q0 : Fin 8) (q1 : Fin 2) (q2 : Fin 2), ∃ t : Fin grid0.N, win0_4.index t = ![q0.val, q1.val, q2.val])

/-- WHAT POINT `t` WRITES BACK is tile `t` of the cost volume of the four arrays. -/
theorem flushed_eq (c : Dev nD) (t : Fin cfg0.N) :
    (dats m 0 c).flushed 4 t = ((cfg0.win 4).blk t).view.read (Elt Ideal) (wholeVol m c) := by
  show (cfg0.win 4).cut (grid0.coords t) ((dats m 0 c).after 4 t) = _
  rw [after0_4]
  unfold out0_4
  rw [View.canon_unit_zero zero_offsets]
  simp only [View.ld_unit_zero (S := S1x128x1152) zero_offsets, View.ld_unit_zero (S := S1x1152x1) zero_offsets,
    View.ld_unit_zero (S := S1x1x1152) zero_offsets]
  obtain ⟨a0, a1, a2, b0, b1, b2, c0, c1, c2, d0, d1, d2, -, -, -⟩ := idx_facts t
  funext j
  show k0_pay1 (F := Ideal) (iblk m c 0 t) (iblk m c 1 t) (iblk m c 2 t) (iblk m c 3 t) j
    = wholeVol m c (((cfg0.win 4).blk t).view.emb j)
  refine tile_eq_vol (V m c main_v0) (V m c main_v1) (V m c main_v4) (V m c main_v7)
    (iblk m c 0 t) (iblk m c 1 t) (iblk m c 2 t) (iblk m c 3 t)
    (win0_4.index t (0 : Fin 3)) (win0_4.index t (1 : Fin 3)) (win0_4.index t (2 : Fin 3)) ?_ ?_ ?_ ?_
    j (((cfg0.win 4).blk t).view.emb j) ?_ ?_ ?_
  · intro k r i' e0 e1 e2
    show V m c main_v0 (((cfg0.win 0).blk t).view.emb (ix3 (0 : Fin 1) k r)) = V m c main_v0 i'
    refine congrArg (V m c main_v0) (funext fun a => Fin.ext ?_)
    match a with
    | ⟨0, _⟩ => show win0_0.index t (0 : Fin 3) * 1 + 1 * 0 = (i' 0).val; omega
    | ⟨1, _⟩ => show win0_0.index t (1 : Fin 3) * 128 + 1 * k.val = (i' 1).val; omega
    | ⟨2, _⟩ => show win0_0.index t (2 : Fin 3) * 1152 + 1 * r.val = (i' 2).val; omega
  · intro k r i' e0 e1 e2
    show V m c main_v1 (((cfg0.win 1).blk t).view.emb (ix3 (0 : Fin 1) k r)) = V m c main_v1 i'
    refine congrArg (V m c main_v1) (funext fun a => Fin.ext ?_)
    match a with
    | ⟨0, _⟩ => show win0_1.index t (0 : Fin 3) * 1 + 1 * 0 = (i' 0).val; omega
    | ⟨1, _⟩ => show win0_1.index t (1 : Fin 3) * 128 + 1 * k.val = (i' 1).val; omega
    | ⟨2, _⟩ => show win0_1.index t (2 : Fin 3) * 1152 + 1 * r.val = (i' 2).val; omega
  · intro p i' e0 e1
    show V m c main_v4 (((cfg0.win 2).blk t).view.emb (ix3 (0 : Fin 1) p (0 : Fin 1))) = V m c main_v4 i'
    refine congrArg (V m c main_v4) (funext fun a => Fin.ext ?_)
    match a with
    | ⟨0, _⟩ => show win0_2.index t (0 : Fin 3) * 1 + 1 * 0 = (i' 0).val; omega
    | ⟨1, _⟩ => show win0_2.index t (1 : Fin 3) * 1152 + 1 * p.val = (i' 1).val; omega
    | ⟨2, _⟩ => show win0_2.index t (2 : Fin 3) * 1 + 1 * 0 = (i' 2).val; have hu : (i' 2).val < 1 := (i' 2).isLt; omega
  · intro q i' e0 e2
    show V m c main_v7 (((cfg0.win 3).blk t).view.emb (ix3 (0 : Fin 1) (0 : Fin 1) q)) = V m c main_v7 i'
    refine congrArg (V m c main_v7) (funext fun a => Fin.ext ?_)
    match a with
    | ⟨0, _⟩ => show win0_3.index t (0 : Fin 3) * 1 + 1 * 0 = (i' 0).val; omega
    | ⟨1, _⟩ => show win0_3.index t (1 : Fin 3) * 1 + 1 * 0 = (i' 1).val; have hu : (i' 1).val < 1 := (i' 1).isLt; omega
    | ⟨2, _⟩ => show win0_3.index t (2 : Fin 3) * 1152 + 1 * q.val = (i' 2).val; omega
  · show win0_4.index t (0 : Fin 3) * 1 + 1 * (j 0).val = win0_4.index t (0 : Fin 3)
    have : (j 0).val < 1 := (j 0).isLt
    omega
  · show win0_4.index t (1 : Fin 3) * 1152 + 1 * (j 1).val = win0_4.index t (1 : Fin 3) * 1152 + (j 1).val
    omega
  · show win0_4.index t (2 : Fin 3) * 1152 + 1 * (j 2).val = win0_4.index t (2 : Fin 3) * 1152 + (j 2).val
    omega

/-- An index of the array is in point `t`'s tile iff each coordinate is in the tile's range on its axis. -/
theorem mem_blk (t : Fin cfg0.N) (i : S8x2304x2304.Idx) :
    i ∈ ((cfg0.win 4).blk t).view.set ↔ ∀ a : Fin 3, win0_4.index t a * S1x1152x1152.size a ≤ (i a).val
      ∧ (i a).val < win0_4.index t a * S1x1152x1152.size a + S1x1152x1152.size a := by
  show i ∈ ((View.whole main_v8).slice (win0_4.rect t)).set ↔ _
  rw [View.set_slice_whole, Rect.mem_set_unit]
  exact Iff.rfl

/-- The tiles cover the array: index (b, r, s) lies in tile (b, r / 1152, s / 1152). -/
theorem cover (i : S8x2304x2304.Idx) :
    ∃ t : Fin cfg0.N, (cfg0.win 4).flush t = true ∧ i ∈ ((cfg0.win 4).blk t).view.set := by
  have hi0 : (i 0).val < 8 := (i 0).isLt
  have hi1 : (i 1).val < 2304 := (i 1).isLt
  have hi2 : (i 2).val < 2304 := (i 2).isLt
  obtain ⟨t, ht⟩ := idx_onto ⟨(i 0).val, hi0⟩ ⟨(i 1).val / 1152, by omega⟩ ⟨(i 2).val / 1152, by omega⟩
  have q0 : win0_4.index t (0 : Fin 3) = (i 0).val := congrFun ht 0
  have q1 : win0_4.index t (1 : Fin 3) = (i 1).val / 1152 := congrFun ht 1
  have q2 : win0_4.index t (2 : Fin 3) = (i 2).val / 1152 := congrFun ht 2
  refine ⟨t, flush0_4 t, ?_⟩
  rw [mem_blk]
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 1152 ≤ (i 1).val ∧ (i 1).val < win0_4.index t (1 : Fin 3) * 1152 + 1152
    omega
  | ⟨2, _⟩ =>
    show win0_4.index t (2 : Fin 3) * 1152 ≤ (i 2).val ∧ (i 2).val < win0_4.index t (2 : Fin 3) * 1152 + 1152
    omega

/-- THE ARRAY after the region: the cost volume of the four arrays. -/
theorem final (c : Dev nD) : (dats m 0 c).arrAt 4 cfg0.N = wholeVol m c :=
  (dats m 0 c).arrAt_eq_of_cover 4 (wholeVol m c) (fun t _ => flushed_eq m c t) cover

/-! ## The four arrays, as the host operations before the kernel leave them -/

/-- The x window ranges over the first argument reshaped to [8, 128, 2304]. -/
theorem V_main_v0 (c : Dev nD) : (V m c main_v0 : FVec Ideal S8x128x2304 .f32)
    = shapeCast _ (m ((c : Thread nD τ).loc main_arg0)) shapeCasts_S8x128x48x48_S8x128x2304 := by
  show StableHlo.after hostOps0 (fun b => m (c, b)) (Proc.devRef .tc main_v0) = _
  after_results
  rfl

/-- The y window ranges over the second argument reshaped to [8, 128, 2304]. -/
theorem V_main_v1 (c : Dev nD) : (V m c main_v1 : FVec Ideal S8x128x2304 .f32)
    = shapeCast _ (m ((c : Thread nD τ).loc main_arg1)) shapeCasts_S8x128x48x48_S8x128x2304 := by
  show StableHlo.after hostOps0 (fun b => m (c, b)) (Proc.devRef .tc main_v1) = _
  after_results
  rfl

/-- The column window ranges over the sum over channels of the squares of reshaped x, kept as an [8, 2304, 1] column. -/
theorem V_main_v4 (c : Dev nD) : (V m c main_v4 : FVec Ideal S8x2304x1 .f32)
    = broadcastInDim S8x2304x1 ![0, 1] bcast_S8x2304_S8x2304x1_0_1
        (Host.reduceAdd
          (mulf (shapeCast _ (m ((c : Thread nD τ).loc main_arg0)) shapeCasts_S8x128x48x48_S8x128x2304)
            (shapeCast _ (m ((c : Thread nD τ).loc main_arg0)) shapeCasts_S8x128x48x48_S8x128x2304))
          (constant (F := Ideal) S_ .f32 0x00000000#32) reducesTo_S8x128x2304_S8x2304_d1 h_S_) := by
  show StableHlo.after hostOps0 (fun b => m (c, b)) (Proc.devRef .tc main_v4) = _
  after_results
  rfl

/-- The row window ranges over the sum over channels of the squares of reshaped y, kept as an [8, 1, 2304] row. -/
theorem V_main_v7 (c : Dev nD) : (V m c main_v7 : FVec Ideal S8x1x2304 .f32)
    = broadcastInDim S8x1x2304 ![0, 2] bcast_S8x2304_S8x1x2304_0_2
        (Host.reduceAdd
          (mulf (shapeCast _ (m ((c : Thread nD τ).loc main_arg1)) shapeCasts_S8x128x48x48_S8x128x2304)
            (shapeCast _ (m ((c : Thread nD τ).loc main_arg1)) shapeCasts_S8x128x48x48_S8x128x2304))
          (constant (F := Ideal) S_ .f32 0x00000000#32) reducesTo_S8x128x2304_S8x2304_d1 h_S_) := by
  show StableHlo.after hostOps0 (fun b => m (c, b)) (Proc.devRef .tc main_v7) = _
  after_results
  rfl

/-! ## The host operation after the kernel, and the run -/

/-- The one operation after the kernel reshapes the kernel's output array: the program's result is the reshape of the
    array the region left. -/
theorem tail_eq (c : Dev nD) :
    Pipeline.afterTail₀ cfgs (dats m) 0 (V0 m) [hostOps1] c main_v9
      = shapeCast _ ((dats m 0 c).arrAt 4 cfg0.N) shapeCasts_S8x2304x2304_S8x2304x48x48 := by
  unfold Pipeline.afterTail₀
  show StableHlo.after hostOps1 _ (Proc.devRef .tc main_v9) = _
  after_results
  exact congrArg (fun A => shapeCast _ A shapeCasts_S8x2304x2304_S8x2304x48x48)
    (Pipeline.withArrays_arr spec0 launch0.win.arr_inj c (V0 m c) _ 4)

/-- THE KERNEL PROGRAM'S RUN: every weakly fair execution terminates with the result at the reshape of the cost volume of
    the four arrays, and the two arguments unchanged. -/
theorem run : θ_run defs (onTc (τ := τ) (main (F := Ideal))) ⟨m, fun _ => 0, ρ⟩ fun r => ∀ c : Dev nD,
      r.2.mem ((c.tc : Thread nD τ).loc main_v9)
        = shapeCast _ (wholeVol m c) shapeCasts_S8x2304x2304_S8x2304x48x48
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v9 (Pipeline.mem_restRefs_of main_v9 (by decide) (by decide))).trans
        ((tail_eq m c).trans (congrArg (fun A => shapeCast _ A shapeCasts_S8x2304x2304_S8x2304x48x48) (final m c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.ArrayVolume

end
-- ==== Proof.lean ====
/-
  The pairwise squared-distance cost volume: a tiled kernel against its whole-array reference.

  Both programs take two images x, y of shape [8, 128, 48, 48] (batch, channel, 48 x 48 positions) and return, reshaped to
  [8, 2304, 48, 48], the array

      P(b, i, j) = (sx(b, i) + sy(b, j)) - 2 * sum over channels c of y(b, c, i) * x(b, c, j),

  where i, j range over the 2304 positions, sx(b, i) is the sum over channels of x(b, c, i)^2 and sy(b, j) the same for y.
  Both compute the two norms on the host in the same way (reshape to [8, 128, 2304], square, sum over the channel axis from
  zero, broadcast to a column and to a row), so those arrays are literally the same terms on the two sides and are never
  opened. The reference forms the whole volume at once: the batched product of y with x contracted over channels, twice
  that subtracted from column plus row. The kernel walks an 8 x 2 x 2 grid and at each point computes one [1152, 1152] tile
  from the matching blocks, its matrix product contracting the channel axis of both blocks into a zero accumulator.

  On extended reals the tile's entry and the volume's entry are the same expression: the product into zero is the plain sum
  over the 128 channels (zero plus a sum is the sum), the change of float format before the product is the identity, and
  the grouping (column + row) - 2 * product is the same on both sides. No law that could fail at an infinity is used, so
  the finiteness of the inputs is never needed. Every tile is a restriction of one whole-array function and the tiles cover
  the array, so the array the kernel leaves is the volume, and both programs reshape it the same way.

  Read over the extended reals the kernel is its own text, with no operation replaced by another, so the statement that
  relates the two readings has no conjunct to prove.
-/
import proofs.«116475_j32804960207252_2_alg».proof.Defs
import proofs.«116475_j32804960207252_2_alg».proof.Proof.Gen.Kernel
import proofs.«116475_j32804960207252_2_alg».proof.Proof.Gen.Kernel.Skeleton
import proofs.«116475_j32804960207252_2_alg».proof.Proof.Gen.Kernel.Launch
import proofs.«116475_j32804960207252_2_alg».proof.Proof.Gen.Kernel.Points
import proofs.«116475_j32804960207252_2_alg».proof.Proof.Gen.Kernel.Frame
import proofs.«116475_j32804960207252_2_alg».proof.Proof.Gen.KernelIdeal
import proofs.«116475_j32804960207252_2_alg».proof.Proof.Gen.KernelIdeal.Skeleton
import proofs.«116475_j32804960207252_2_alg».proof.Proof.Gen.KernelIdeal.Launch
import proofs.«116475_j32804960207252_2_alg».proof.Proof.Gen.KernelIdeal.Points
import proofs.«116475_j32804960207252_2_alg».proof.Proof.Gen.KernelIdeal.Frame
import proofs.«116475_j32804960207252_2_alg».proof.Proof.Gen.ReferenceIdeal
import proofs.«116475_j32804960207252_2_alg».proof.Proof.Gen.Pre_finite_inputs
import proofs.«116475_j32804960207252_2_alg».proof.Proof.Gen.ReferenceIdeal.Run
import proofs.«116475_j32804960207252_2_alg».proof.Proof.Gen.ReferenceIdeal.Read
import proofs.«116475_j32804960207252_2_alg».proof.Proof.RefVolume
import proofs.«116475_j32804960207252_2_alg».proof.Proof.ArrayVolume
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was replaced when it was restated over the extended reals: nothing to prove. -/
theorem preserves : Cert.preserves_Kernel_KernelIdeal := trivial

/-- From memories agreeing on x and y, the kernel ends at the reshape of the cost volume of its four window arrays, the
    reference at the reshape of the cost volume of its four stages; the window arrays are the stages, term for term. -/
theorem algebraic : Cert.algebraic_KernelIdeal_ReferenceIdeal := by
  intro m ρ m' ρ' _ hagree
  refine ⟨_, Cert.KernelIdeal.ArrayVolume.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq]
  unfold Cert.ReferenceIdeal.Read.val_main_v15
  rw [Cert.ReferenceIdeal.RefVolume.sub_stage_eq, (hagree c).1, (hagree c).2]
  dsimp only [Cert.KernelIdeal.ArrayVolume.wholeVol]
  rw [Cert.KernelIdeal.ArrayVolume.V_main_v0, Cert.KernelIdeal.ArrayVolume.V_main_v1,
    Cert.KernelIdeal.ArrayVolume.V_main_v4, Cert.KernelIdeal.ArrayVolume.V_main_v7]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
